-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S8000x128 : Shape := ⟨2, ![8000, 128]⟩
abbrev S1x128 : Shape := ⟨2, ![1, 128]⟩
abbrev S_ : Shape := ⟨0, ![]⟩
abbrev S800000x1 : Shape := ⟨2, ![800000, 1]⟩
abbrev S5000x128 : Shape := ⟨2, ![5000, 128]⟩

abbrev nBuf : Space → Nat
  | .hbm => 32
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S800000x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S8000x128, .f32⟩
  | .local _ .vmem, ⟨7, _⟩ => ⟨S8000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S128x128_S128x128_1_0 : S128x128.Transposes [1, 0] S128x128
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  dot_S8000x128_S128x128_S8000x128_1_0_0_1_n_n_wf : DotDims.WF S8000x128 S128x128 S8000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S800000x1 : Shape := ⟨2, ![800000, 1]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S800000x128, .f32⟩
  | .hbm, ⟨14, _⟩ => ⟨S1x128, .f32⟩
  | .hbm, ⟨15, _⟩ => ⟨S800000x128, .f32⟩
  | .hbm, ⟨16, _⟩ => ⟨S800000x128, .f32⟩
  | .hbm, ⟨17, _⟩ => ⟨S_, .f32⟩
  | .hbm, ⟨18, _⟩ => ⟨S800000x128, .f32⟩
  | .hbm, ⟨19, _⟩ => ⟨S800000x128, .f32⟩
  | .hbm, ⟨20, _⟩ => ⟨S128x128, .f32⟩
  | .hbm, ⟨21, _⟩ => ⟨S800000x128, .f32⟩
  | .hbm, ⟨22, _⟩ => ⟨S1x128, .f32⟩
  | .hbm, ⟨23, _⟩ => ⟨S800000x128, .f32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_cst : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  @main is four segments: the host's transposes of the four weight matrices, the edge region, the host's gather,
  product and scatter-sum, the node region. The library's launch theorem for a program of several regions runs
  them in order from any launch memory and ends in a state whose unscoped buffers hold the contents of the last
  segment boundary. Read at the result buffer, that is the node region's output array as the region's write-backs
  leave it; read at an argument, it is the launch contents. So every weakly fair execution terminates, nothing
  faults, the result buffer holds the last boundary's contents at it, and the arguments are unchanged.
-/
import proofs.«127536_j13297218748565_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault; the result buffer ends at the contents of the
    last segment boundary (the node region's exit), and every argument array ends as launched. -/
theorem run_named : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.HostChain.lean ====
/-
  What the regions find in their operand buffers, read back to the launch memory.

  Before the edge region the host transposes the four weight matrices; between the regions it wraps negative source
  indices once, gathers the source nodes' rows, multiplies them entrywise with the edge region's result and
  scatter-adds the products into a zero array by destination index (`aggregate`). No host operation and no region
  writes an argument. So the edge region is entered with the edge features, the first two transposed weights and the
  first two biases as launched; the node region with `aggregate` of the edge region's result array, the last two
  transposed weights and the last two biases.
-/
import proofs.«127536_j13297218748565_1_alg».proof.Proof.Gen.KernelIdeal.Frame
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable {F : FTy → Type} [FloatOps F]

/-- The host's stage between the regions: source indices below zero wrapped once by the node count, the source
    nodes' rows gathered, multiplied entrywise with the edge values `e`, and scatter-added into the zero array by
    destination index. -/
def aggregate (h : Vec F S50000x128 .f32) (src dst : Vec F S800000 .i32) (e : Vec F S800000x128 .f32) :
    Vec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      e)

variable (m : (ℓ : Loc nD τ sig) → Buf (Elt F) ℓ) (ρ : Dev nD → PrngReg)

/-! ## The edge region's entry contents -/

theorem V1_arg1 (c : Dev nD) : V1 m ρ c main_arg1 = m ((c : Thread nD τ).loc main_arg1) := by
  show StableHlo.after hostOps0 (W0 m ρ c) (Proc.devRef .tc main_arg1) = _
  after_results

theorem V1_v0 (c : Dev nD) :
    V1 m ρ c main_v0 = transpose S128x128 [1, 0] (m ((c : Thread nD τ).loc main_arg4)) transposes_S128x128_S128x128_1_0 := by
  show StableHlo.after hostOps0 (W0 m ρ c) (Proc.devRef .tc main_v0) = _
  after_results

theorem V1_arg5 (c : Dev nD) : V1 m ρ c main_arg5 = m ((c : Thread nD τ).loc main_arg5) := by
  show StableHlo.after hostOps0 (W0 m ρ c) (Proc.devRef .tc main_arg5) = _
  after_results

theorem V1_v1 (c : Dev nD) :
    V1 m ρ c main_v1 = transpose S128x128 [1, 0] (m ((c : Thread nD τ).loc main_arg6)) transposes_S128x128_S128x128_1_0 := by
  show StableHlo.after hostOps0 (W0 m ρ c) (Proc.devRef .tc main_v1) = _
  after_results

theorem V1_arg7 (c : Dev nD) : V1 m ρ c main_arg7 = m ((c : Thread nD τ).loc main_arg7) := by
  show StableHlo.after hostOps0 (W0 m ρ c) (Proc.devRef .tc main_arg7) = _
  after_results

/-! ## The edge region's exit contents, where the next stretch and the node region read them -/

theorem W2_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)

theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)

theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results)

theorem W2_v2 (c : Dev nD) : W2 m ρ c (Proc.devRef .tc main_v2)
    = transpose S128x128 [1, 0] (m ((c : Thread nD τ).loc main_arg8)) transposes_S128x128_S128x128_1_0 :=
  (W2_of_ne m ρ c main_v2 (by decide)).trans (by
    show StableHlo.after hostOps0 (W0 m ρ c) (Proc.devRef .tc main_v2) = _
    after_results)

theorem W2_v3 (c : Dev nD) : W2 m ρ c (Proc.devRef .tc main_v3)
    = transpose S128x128 [1, 0] (m ((c : Thread nD τ).loc main_arg10)) transposes_S128x128_S128x128_1_0 :=
  (W2_of_ne m ρ c main_v3 (by decide)).trans (by
    show StableHlo.after hostOps0 (W0 m ρ c) (Proc.devRef .tc main_v3) = _
    after_results)

/-- The edge region's result buffer holds what its write-backs leave. -/
theorem W2_v4 (c : Dev nD) : W2 m ρ c (Proc.devRef .tc main_v4) = (dat0 (V1 m ρ) c).arrAt 5 cfg0.N :=
  W2_arr m ρ c 5

/-! ## The node region's entry contents -/

set_option maxHeartbeats 2000000 in
theorem V3_v15 (c : Dev nD) :
    V3 m ρ c main_v15
      = aggregate (m ((c : Thread nD τ).loc main_arg0)) (m ((c : Thread nD τ).loc main_arg2))
          (m ((c : Thread nD τ).loc main_arg3)) ((dat0 (V1 m ρ) c).arrAt 5 cfg0.N) := by
  show StableHlo.after hostOps1 (W2 m ρ c) (Proc.devRef .tc main_v15) = _
  after_results_simp
  rw [W2_arg0, W2_arg2, W2_arg3, W2_v4]
  rfl

theorem V3_v2 (c : Dev nD) : V3 m ρ c main_v2
    = transpose S128x128 [1, 0] (m ((c : Thread nD τ).loc main_arg8)) transposes_S128x128_S128x128_1_0 := by
  show StableHlo.after hostOps1 (W2 m ρ c) (Proc.devRef .tc main_v2) = _
  after_results
  exact W2_v2 m ρ c

theorem V3_v3 (c : Dev nD) : V3 m ρ c main_v3
    = transpose S128x128 [1, 0] (m ((c : Thread nD τ).loc main_arg10)) transposes_S128x128_S128x128_1_0 := by
  show StableHlo.after hostOps1 (W2 m ρ c) (Proc.devRef .tc main_v3) = _
  after_results
  exact W2_v3 m ρ c

theorem V3_arg9 (c : Dev nD) : V3 m ρ c main_arg9 = m ((c : Thread nD τ).loc main_arg9) := by
  show StableHlo.after hostOps1 (W2 m ρ c) (Proc.devRef .tc main_arg9) = _
  after_results
  exact W2_arg9 m ρ c

theorem V3_arg11 (c : Dev nD) : V3 m ρ c main_arg11 = m ((c : Thread nD τ).loc main_arg11) := by
  show StableHlo.after hostOps1 (W2 m ρ c) (Proc.devRef .tc main_arg11) = _
  after_results
  exact W2_arg11 m ρ c

end Cert.KernelIdeal.Chain

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.LibPerceptron.lean ====
/-
  A two-layer perceptron with a rectifier between its layers, read one row at a time on the extended reals.

  For an `[R, K]` array `x`, weights `w1 : [K, N]`, `w2 : [N, P]` and biases `b1 : [N]`, `b2 : [P]`, row `r` of
  `max (x · w1 + b1) 0 · w2 + b2` depends on row `r` of `x` alone: it is `twoLayer` of that row. `rows` is the whole
  array assembled from its rows. Two spellings of the perceptron are shown equal to `rows`: the one a kernel block
  computes (matrix products accumulated into the zero splat, operands narrowed to a shorter float format, the bias
  cast to a row and broadcast) and the one the host computes (`dot_general`, the bias broadcast in dimension twice,
  the rectifier as a maximum with a broadcast zero). A block of rows therefore computes the rows of the whole.
-/
import proofs.«127536_j13297218748565_1_alg».proof.Proof.LibDenseRows

noncomputable section

namespace Cert.Perceptron

open Idealize.ShloMosaic Idealize.ShloMosaic.ValueIdx Cert.DenseRows

/-- Two dense layers with a rectifier between them, applied to one row. The threshold is the float word of zero. -/
def twoLayer {K N P : ℕ} (h : Fin K → EReal) (W1 : Fin K → Fin N → EReal) (b1 : Fin N → EReal)
    (W2 : Fin N → Fin P → EReal) (b2 : Fin P → EReal) : Fin P → EReal :=
  affine (floorAt (Ideal.ofBits .f32 0x00000000#32) (affine h W1 b1)) W2 b2

/-- The perceptron applied to every row of `x`: entry `(r, p)` is entry `p` of `twoLayer` of row `r`. -/
def rows {R K N P : ℕ} (x : (⟨2, ![R, K]⟩ : Shape).Idx → EReal) (w1 : (⟨2, ![K, N]⟩ : Shape).Idx → EReal)
    (b1 : (⟨1, ![N]⟩ : Shape).Idx → EReal) (w2 : (⟨2, ![N, P]⟩ : Shape).Idx → EReal)
    (b2 : (⟨1, ![P]⟩ : Shape).Idx → EReal) : (⟨2, ![R, P]⟩ : Shape).Idx → EReal :=
  fun i => twoLayer (row x (i 0)) (mat w1) (vec b1) (mat w2) (vec b2) (i 1)

/-- Row `r` of `rows` is `twoLayer` of row `r`. -/
theorem row_rows {R K N P : ℕ} (x : (⟨2, ![R, K]⟩ : Shape).Idx → EReal) (w1 : (⟨2, ![K, N]⟩ : Shape).Idx → EReal)
    (b1 : (⟨1, ![N]⟩ : Shape).Idx → EReal) (w2 : (⟨2, ![N, P]⟩ : Shape).Idx → EReal)
    (b2 : (⟨1, ![P]⟩ : Shape).Idx → EReal) (r : Fin R) :
    row (rows x w1 b1 w2 b2) r = twoLayer (row x r) (mat w1) (vec b1) (mat w2) (vec b2) := rfl

/-- Two `[R, N]` arrays with the same rows are equal. -/
theorem eq_of_rows {R N : ℕ} (A B : (⟨2, ![R, N]⟩ : Shape).Idx → EReal) (h : ∀ r : Fin R, row A r = row B r) : A = B := by
  funext i
  have hi := congrFun (h (i 0)) (i 1)
  rw [eq_ix2 i]
  exact hi

/-- `rows` reads only the rows of `x`: if row `r` of `x` is row `r'` of `y`, row `r` of the result is row `r'` of
    the result on `y`. (What makes a block of rows compute the rows of the whole.) -/
theorem rows_congr_row {R R' K N P : ℕ} (x : (⟨2, ![R, K]⟩ : Shape).Idx → EReal) (y : (⟨2, ![R', K]⟩ : Shape).Idx → EReal)
    (w1 : (⟨2, ![K, N]⟩ : Shape).Idx → EReal) (b1 : (⟨1, ![N]⟩ : Shape).Idx → EReal)
    (w2 : (⟨2, ![N, P]⟩ : Shape).Idx → EReal) (b2 : (⟨1, ![P]⟩ : Shape).Idx → EReal)
    (r : Fin R) (r' : Fin R') (h : row x r = row y r') (p : Fin P) :
    rows x w1 b1 w2 b2 (ix2 r p) = rows y w1 b1 w2 b2 (ix2 r' p) := by
  show twoLayer (row x r) (mat w1) (vec b1) (mat w2) (vec b2) p = twoLayer (row y r') (mat w1) (vec b1) (mat w2) (vec b2) p
  rw [h]

/-- A change of float format leaves a matrix as it was: on the extended reals it is the identity. -/
private theorem mat_truncf {K N : ℕ} {φ ψ : FTy} (w : FVec Ideal ⟨2, ![K, N]⟩ φ) (h : ψ.bits < φ.bits) :
    mat (truncf ψ w h : FVec Ideal ⟨2, ![K, N]⟩ ψ) = mat w := rfl

/-- THE BLOCK'S SPELLING: operands narrowed to a shorter float format (the identity on the extended reals), the
    weights cast to their own shape, each product accumulated into the zero splat, each bias cast to a row and
    broadcast over the rows, the rectifier a maximum with a splat zero. -/
theorem block_eq_rows {R K N P : ℕ}
    (d1 : DotDims ⟨2, ![R, K]⟩ ⟨2, ![K, N]⟩ ⟨2, ![R, N]⟩) (hd1 : d1 = DotDims.plain R K N)
    (d2 : DotDims ⟨2, ![R, N]⟩ ⟨2, ![N, P]⟩ ⟨2, ![R, P]⟩) (hd2 : d2 = DotDims.plain R N P)
    (x : FVec Ideal ⟨2, ![R, K]⟩ .f32) (w1 : FVec Ideal ⟨2, ![K, N]⟩ .f32) (b1 : FVec Ideal ⟨1, ![N]⟩ .f32)
    (w2 : FVec Ideal ⟨2, ![N, P]⟩ .f32) (b2 : FVec Ideal ⟨1, ![P]⟩ .f32)
    (hs1 : (⟨2, ![K, N]⟩ : Shape).ShapeCasts ⟨2, ![K, N]⟩) (hs2 : (⟨2, ![N, P]⟩ : Shape).ShapeCasts ⟨2, ![N, P]⟩)
    (hc1 : (⟨1, ![N]⟩ : Shape).ShapeCasts ⟨2, ![1, N]⟩) (hb1 : (⟨2, ![1, N]⟩ : Shape).Broadcasts ⟨2, ![R, N]⟩)
    (hc2 : (⟨1, ![P]⟩ : Shape).ShapeCasts ⟨2, ![1, P]⟩) (hb2 : (⟨2, ![1, P]⟩ : Shape).Broadcasts ⟨2, ![R, P]⟩)
    (hlt : FTy.bf16.bits < FTy.f32.bits) :
    addf (matmul d2 none
            (truncf .bf16
              (maximumf
                (addf (matmul d1 none (truncf .bf16 x hlt) (truncf .bf16 (shapeCast ⟨2, ![K, N]⟩ w1 hs1) hlt)
                        (constant (F := Ideal) ⟨2, ![R, N]⟩ .f32 0x00000000#32))
                      (broadcastTo ⟨2, ![R, N]⟩ (shapeCast ⟨2, ![1, N]⟩ b1 hc1) hb1))
                (broadcast ⟨2, ![R, N]⟩ (Scalar.ofBits (F := Ideal) .f32 0x00000000#32))) hlt)
            (truncf .bf16 (shapeCast ⟨2, ![N, P]⟩ w2 hs2) hlt)
            (constant (F := Ideal) ⟨2, ![R, P]⟩ .f32 0x00000000#32))
         (broadcastTo ⟨2, ![R, P]⟩ (shapeCast ⟨2, ![1, P]⟩ b2 hc2) hb2)
      = rows x w1 b1 w2 b2 := by
  refine eq_of_rows _ _ fun r => ?_
  refine (row_matmul_bias d2 hd2 none _ _ b2 hc2 hb2 r).trans ?_
  rw [row_truncf, row_max_splat, row_matmul_bias d1 hd1 none _ _ b1 hc1 hb1 r, row_truncf,
    mat_truncf, mat_truncf, mat_shapeCast_self, mat_shapeCast_self, row_rows]
  rfl

/-- THE HOST'S SPELLING: `dot_general` for each product, each bias broadcast in dimension to a row and then over the
    rows, the rectifier a maximum with a rank-zero zero broadcast in dimension. -/
theorem host_eq_rows {R K N P : ℕ}
    (d1 : DotDims ⟨2, ![R, K]⟩ ⟨2, ![K, N]⟩ ⟨2, ![R, N]⟩) (hd1 : d1 = DotDims.plain R K N)
    (d2 : DotDims ⟨2, ![R, N]⟩ ⟨2, ![N, P]⟩ ⟨2, ![R, P]⟩) (hd2 : d2 = DotDims.plain R N P)
    (x : FVec Ideal ⟨2, ![R, K]⟩ .f32) (w1 : FVec Ideal ⟨2, ![K, N]⟩ .f32) (b1 : FVec Ideal ⟨1, ![N]⟩ .f32)
    (w2 : FVec Ideal ⟨2, ![N, P]⟩ .f32) (b2 : FVec Ideal ⟨1, ![P]⟩ .f32)
    (dims0 : Fin (⟨0, ![]⟩ : Shape).rank → Fin (⟨2, ![R, N]⟩ : Shape).rank)
    (h0 : (⟨0, ![]⟩ : Shape).BroadcastsInDim ⟨2, ![R, N]⟩ dims0)
    (h11 : (⟨1, ![N]⟩ : Shape).BroadcastsInDim ⟨2, ![1, N]⟩ ![1])
    (h12 : (⟨2, ![1, N]⟩ : Shape).BroadcastsInDim ⟨2, ![R, N]⟩ ![0, 1])
    (h21 : (⟨1, ![P]⟩ : Shape).BroadcastsInDim ⟨2, ![1, P]⟩ ![1])
    (h22 : (⟨2, ![1, P]⟩ : Shape).BroadcastsInDim ⟨2, ![R, P]⟩ ![0, 1]) :
    addf (Host.dotGeneral d2 none
            (maximumf
              (addf (Host.dotGeneral d1 none x w1)
                    (broadcastInDim ⟨2, ![R, N]⟩ ![0, 1] h12 (broadcastInDim ⟨2, ![1, N]⟩ ![1] h11 b1)))
              (broadcastInDim ⟨2, ![R, N]⟩ dims0 h0 (constant (F := Ideal) ⟨0, ![]⟩ .f32 0x00000000#32)))
            w2)
         (broadcastInDim ⟨2, ![R, P]⟩ ![0, 1] h22 (broadcastInDim ⟨2, ![1, P]⟩ ![1] h21 b2))
      = rows x w1 b1 w2 b2 := by
  refine eq_of_rows _ _ fun r => ?_
  refine (row_dotGeneral_bias d2 hd2 none _ w2 b2 h21 h22 r).trans ?_
  rw [row_max_splatInDim, row_dotGeneral_bias d1 hd1 none x w1 b1 h11 h12 r, row_rows]
  rfl

end Cert.Perceptron

end
-- ==== Proof.KernelPayload.lean ====
/-
  What each kernel body stores, as a function of what it loads.

  Both kernel bodies are the same two-layer perceptron on a block of rows: the edge kernel on 8000 rows of edge
  features, the node kernel on 5000 rows of aggregated messages, each with two 128 x 128 weight matrices (already
  transposed by the host) and two bias vectors. On the extended reals the narrowing of the matrix products'
  operands to a shorter float format is the identity, so the stored block is the perceptron of the loaded rows.
-/
import proofs.«127536_j13297218748565_1_alg».proof.Proof.Gen.KernelIdeal.Skeleton
import proofs.«127536_j13297218748565_1_alg».proof.Proof.LibPerceptron

noncomputable section

namespace Cert.KernelIdeal.Payload

open Idealize.ShloMosaic Cert.KernelIdeal Cert.KernelIdeal.Gen

/-- The edge kernel's stored block is the perceptron of its loaded rows. -/
theorem edge_payload (x0 : Vec Ideal S8000x128 .f32) (x1 : Vec Ideal S128x128 .f32) (x2 : Vec Ideal S128 .f32)
    (x3 : Vec Ideal S128x128 .f32) (x4 : Vec Ideal S128 .f32) :
    k0_pay1 (F := Ideal) x0 x1 x2 x3 x4 = Cert.Perceptron.rows x0 x1 x2 x3 x4 := by
  unfold k0_pay1
  exact Cert.Perceptron.block_eq_rows _ rfl _ rfl x0 x1 x2 x3 x4 _ _ _ _ _ _ _

/-- The node kernel's stored block is the perceptron of its loaded rows. -/
theorem node_payload (x0 : Vec Ideal S5000x128 .f32) (x1 : Vec Ideal S128x128 .f32) (x2 : Vec Ideal S128 .f32)
    (x3 : Vec Ideal S128x128 .f32) (x4 : Vec Ideal S128 .f32) :
    k1_pay1 (F := Ideal) x0 x1 x2 x3 x4 = Cert.Perceptron.rows x0 x1 x2 x3 x4 := by
  unfold k1_pay1
  rw [shapeCast_self x0]
  exact Cert.Perceptron.block_eq_rows _ rfl _ rfl x0 x1 x2 x3 x4 _ _ _ _ _ _ _

end Cert.KernelIdeal.Payload

end
-- ==== Proof.RegionArrays.lean ====
/-
  Each region's output array, as the region's write-backs leave it, is the perceptron of its operand array.

  The edge region runs its body at 100 grid points; point `t` loads rows `8000 t .. 8000 t + 7999` of the edge
  features and the whole of both weight matrices and both biases, and writes back rows `8000 t ..` of the result.
  The stored block is the perceptron of the loaded rows, and the perceptron reads only the rows it is given, so what
  point `t` writes back is block `t` of the perceptron of the whole array. The 100 blocks tile the 800000 rows, so
  the array ends as the perceptron of the whole. The node region is the same with 10 points of 5000 rows.
-/
import proofs.«127536_j13297218748565_1_alg».proof.Proof.Gen.KernelIdeal.Frame
import proofs.«127536_j13297218748565_1_alg».proof.Proof.KernelPayload
import Idealize.ShloMosaic.Lib.Pipeline.Value

set_option maxRecDepth 16384

noncomputable section

namespace Cert.KernelIdeal.Arrays

open Idealize.ShloMosaic Idealize.ShloMosaic.TcCoe Idealize.SL.Sem
open Idealize.ShloMosaic.Pipeline (Dat Cfg Window)
open Cert.KernelIdeal Cert.KernelIdeal.Gen

-- the TensorCore's buffer contents when a region is entered
variable (V : (c : Dev nD) → (b : Ref sig .tc) → Buf (Elt Ideal) ((c : Thread nD τ).loc b))

/-! ## Zero offsets, however spelt -/

theorem zero2 : (![0, 0] : Fin 2 → Nat) = fun _ => 0 := funext fun a => by fin_cases a <;> rfl
theorem zero1 : (![0] : Fin 1 → Nat) = fun _ => 0 := funext fun a => by fin_cases a; rfl

/-! ## The edge region -/

/-- The edge region's index maps, decided over its 100 points: the feature window and the result window sit at
    block row t, column block 0; the weight and bias windows stay at block 0. -/
theorem edge_idx : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- The first weight window's block is the whole matrix: block (0, 0) of a 128 x 128 array in blocks of 128 x 128. -/
theorem edge_w1 (c : Dev nD) (t : Fin cfg0.N) :
    (iblk0 (F := Ideal) V c 1 t : Vec Ideal S128x128 .f32) = (V c main_v0 : S128x128.Idx → EReal) := by
  obtain ⟨-, -, -, -, e0, e1, -, -, -, -⟩ := edge_idx t
  funext y
  unfold iblk0
  rw [View.read_apply]
  show V c main_v0 (((cfg0.win 1).blk t).view.emb y) = V c main_v0 y
  congr 1
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first bias window's block is the whole vector. -/
theorem edge_b1 (c : Dev nD) (t : Fin cfg0.N) :
    (iblk0 (F := Ideal) V c 2 t : Vec Ideal S128 .f32) = (V c main_arg5 : S128.Idx → EReal) := by
  obtain ⟨-, -, -, -, -, -, e0, -, -, -⟩ := edge_idx t
  funext y
  unfold iblk0
  rw [View.read_apply]
  show V c main_arg5 (((cfg0.win 2).blk t).view.emb y) = V c main_arg5 y
  congr 1
  funext a; apply Fin.ext
  match a with
  | ⟨0, _⟩ => show win0_2.index t (0 : Fin 1) * 128 + 1 * (y 0).val = (y 0).val; omega

/-- The second weight window's block is the whole matrix. -/
theorem edge_w2 (c : Dev nD) (t : Fin cfg0.N) :
    (iblk0 (F := Ideal) V c 3 t : Vec Ideal S128x128 .f32) = (V c main_v1 : S128x128.Idx → EReal) := by
  obtain ⟨-, -, -, -, -, -, -, e0, e1, -⟩ := edge_idx t
  funext y
  unfold iblk0
  rw [View.read_apply]
  show V c main_v1 (((cfg0.win 3).blk t).view.emb y) = V c main_v1 y
  congr 1
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias window's block is the whole vector. -/
theorem edge_b2 (c : Dev nD) (t : Fin cfg0.N) :
    (iblk0 (F := Ideal) V c 4 t : Vec Ideal S128 .f32) = (V c main_arg7 : S128.Idx → EReal) := by
  obtain ⟨-, -, -, -, -, -, -, -, -, e0⟩ := edge_idx t
  funext y
  unfold iblk0
  rw [View.read_apply]
  show V c main_arg7 (((cfg0.win 4).blk t).view.emb y) = V c main_arg7 y
  congr 1
  funext a; apply Fin.ext
  match a with
  | ⟨0, _⟩ => show win0_4.index t (0 : Fin 1) * 128 + 1 * (y 0).val = (y 0).val; omega

/-- Row p of the feature window's block at point t is row 8000 t + p of the feature array. -/
theorem edge_x_row (c : Dev nD) (t : Fin cfg0.N) (p : Fin 8000) (r : Fin 800000) (hr : r.val = 8000 * t.val + p.val) :
    Cert.DenseRows.row (iblk0 (F := Ideal) V c 0 t : Vec Ideal S8000x128 .f32) p
      = Cert.DenseRows.row (V c main_arg1 : S800000x128.Idx → EReal) r := by
  obtain ⟨e0, e1, -⟩ := edge_idx t
  funext k
  unfold Cert.DenseRows.row iblk0
  rw [View.read_apply]
  show V c main_arg1 (((cfg0.win 0).blk t).view.emb (ValueIdx.ix2 p k)) = V c main_arg1 (ValueIdx.ix2 r k)
  congr 1
  funext a; apply Fin.ext
  match a with
  | ⟨0, _⟩ => show win0_0.index t (0 : Fin 2) * 8000 + 1 * p.val = r.val; omega
  | ⟨1, _⟩ => show win0_0.index t (1 : Fin 2) * 128 + 1 * k.val = k.val; omega

/-- Entry (p, q) of the result window's block at point t is entry (8000 t + p, q) of the result array. -/
theorem edge_out_emb (t : Fin cfg0.N) (p : Fin 8000) (q : Fin 128) (r : Fin 800000) (hr : r.val = 8000 * t.val + p.val) :
    ((cfg0.win 5).blk t).view.emb (ValueIdx.ix2 p q) = (ValueIdx.ix2 r q : S800000x128.Idx) := by
  obtain ⟨-, -, e0, e1, -⟩ := edge_idx t
  funext a; apply Fin.ext
  match a with
  | ⟨0, _⟩ => show win0_5.index t (0 : Fin 2) * 8000 + 1 * p.val = r.val; omega
  | ⟨1, _⟩ => show win0_5.index t (1 : Fin 2) * 128 + 1 * q.val = q.val; omega

/-- What point t writes back is block t of the perceptron of the whole feature array: the stored block is the
    perceptron of the loaded rows, the loaded weights and biases are the whole arrays, and the perceptron of rows
    8000 t .. 8000 t + 7999 of the array is rows 8000 t .. of the perceptron of the array. -/
theorem edge_flushed (c : Dev nD) (t : Fin cfg0.N) :
    (dat0 (F := Ideal) V c).flushed 5 t = ((cfg0.win 5).blk t).view.read (Elt Ideal)
      (Cert.Perceptron.rows (V c main_arg1) (V c main_v0) (V c main_arg5) (V c main_v1) (V c main_arg7)) := by
  show (cfg0.win 5).cut (grid0.coords t) ((dat0 V c).after 5 t) = _
  rw [after0_5]
  unfold out0_5
  rw [View.canon_unit_zero zero2]
  simp only [View.ld_unit_zero (S := S8000x128) zero2, View.ld_unit_zero (S := S128x128) zero2,
    View.ld_unit_zero (S := S128) zero1]
  rw [Payload.edge_payload]
  funext j
  obtain ⟨p, q, rfl⟩ : ∃ (p : Fin 8000) (q : Fin 128), j = ValueIdx.ix2 p q := ⟨j 0, j 1, ValueIdx.eq_ix2 j⟩
  have hN : cfg0.N = 100 := N_0
  have hr : 8000 * t.val + p.val < 800000 := by have := t.isLt; have := p.isLt; omega
  show Cert.Perceptron.rows (iblk0 V c 0 t) (iblk0 V c 1 t) (iblk0 V c 2 t) (iblk0 V c 3 t) (iblk0 V c 4 t) (ValueIdx.ix2 p q)
    = Cert.Perceptron.rows (V c main_arg1) (V c main_v0) (V c main_arg5) (V c main_v1) (V c main_arg7)
        (((cfg0.win 5).blk t).view.emb (ValueIdx.ix2 p q))
  rw [edge_out_emb t p q ⟨_, hr⟩ rfl, edge_w1 V c t, edge_b1 V c t, edge_w2 V c t, edge_b2 V c t]
  exact Cert.Perceptron.rows_congr_row _ _ _ _ _ _ p ⟨_, hr⟩ (edge_x_row V c t p ⟨_, hr⟩ rfl) q

/-- An index of the result array is in point t's block iff each coordinate is in the block's range on its axis. -/
theorem edge_mem_blk (t : Fin cfg0.N) (i : S800000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v4).slice (win0_5.rect t)).set ↔ _
  rw [View.set_slice_whole, Rect.mem_set_unit]
  exact Iff.rfl

/-- The 100 blocks of 8000 rows tile the 800000 rows: row r is in the block of point r / 8000. -/
theorem edge_cover (i : S800000x128.Idx) :
    ∃ t : Fin cfg0.N, (cfg0.win 5).flush t = true ∧ i ∈ ((cfg0.win 5).blk t).view.set := by
  have hN : cfg0.N = 100 := N_0
  have hi0 : (i 0).val < 800000 := (i 0).isLt
  have hi1 : (i 1).val < 128 := (i 1).isLt
  obtain ⟨t, et⟩ : ∃ t : Fin cfg0.N, t.val = (i 0).val / 8000 := ⟨⟨(i 0).val / 8000, by omega⟩, rfl⟩
  obtain ⟨-, -, e0, e1, -⟩ := edge_idx t
  refine ⟨t, flush0_5 t, ?_⟩
  rw [edge_mem_blk]
  intro a
  match a with
  | ⟨0, _⟩ =>
    show win0_5.index t (0 : Fin 2) * 8000 ≤ (i 0).val ∧ (i 0).val < win0_5.index t (0 : Fin 2) * 8000 + 8000
    omega
  | ⟨1, _⟩ =>
    show win0_5.index t (1 : Fin 2) * 128 ≤ (i 1).val ∧ (i 1).val < win0_5.index t (1 : Fin 2) * 128 + 128
    omega

/-! ## The node region -/

/-- The node region's index maps, decided over its 10 points: the message window and the result window sit at
    block row t, column block 0; the weight and bias windows stay at block 0. -/
theorem node_idx : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0 :=
  (by decide +kernel : ∀ t : Fin grid1.N, _)

/-- The first weight window's block is the whole matrix: block (0, 0) of a 128 x 128 array in blocks of 128 x 128. -/
theorem node_w1 (c : Dev nD) (t : Fin cfg1.N) :
    (iblk1 (F := Ideal) V c 1 t : Vec Ideal S128x128 .f32) = (V c main_v2 : S128x128.Idx → EReal) := by
  obtain ⟨-, -, -, -, e0, e1, -, -, -, -⟩ := node_idx t
  funext y
  unfold iblk1
  rw [View.read_apply]
  show V c main_v2 (((cfg1.win 1).blk t).view.emb y) = V c main_v2 y
  congr 1
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The first bias window's block is the whole vector. -/
theorem node_b1 (c : Dev nD) (t : Fin cfg1.N) :
    (iblk1 (F := Ideal) V c 2 t : Vec Ideal S128 .f32) = (V c main_arg9 : S128.Idx → EReal) := by
  obtain ⟨-, -, -, -, -, -, e0, -, -, -⟩ := node_idx t
  funext y
  unfold iblk1
  rw [View.read_apply]
  show V c main_arg9 (((cfg1.win 2).blk t).view.emb y) = V c main_arg9 y
  congr 1
  funext a; apply Fin.ext
  match a with
  | ⟨0, _⟩ => show win1_2.index t (0 : Fin 1) * 128 + 1 * (y 0).val = (y 0).val; omega

/-- The second weight window's block is the whole matrix. -/
theorem node_w2 (c : Dev nD) (t : Fin cfg1.N) :
    (iblk1 (F := Ideal) V c 3 t : Vec Ideal S128x128 .f32) = (V c main_v3 : S128x128.Idx → EReal) := by
  obtain ⟨-, -, -, -, -, -, -, e0, e1, -⟩ := node_idx t
  funext y
  unfold iblk1
  rw [View.read_apply]
  show V c main_v3 (((cfg1.win 3).blk t).view.emb y) = V c main_v3 y
  congr 1
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second bias window's block is the whole vector. -/
theorem node_b2 (c : Dev nD) (t : Fin cfg1.N) :
    (iblk1 (F := Ideal) V c 4 t : Vec Ideal S128 .f32) = (V c main_arg11 : S128.Idx → EReal) := by
  obtain ⟨-, -, -, -, -, -, -, -, -, e0⟩ := node_idx t
  funext y
  unfold iblk1
  rw [View.read_apply]
  show V c main_arg11 (((cfg1.win 4).blk t).view.emb y) = V c main_arg11 y
  congr 1
  funext a; apply Fin.ext
  match a with
  | ⟨0, _⟩ => show win1_4.index t (0 : Fin 1) * 128 + 1 * (y 0).val = (y 0).val; omega

/-- Row p of the message window's block at point t is row 5000 t + p of the message array. -/
theorem node_x_row (c : Dev nD) (t : Fin cfg1.N) (p : Fin 5000) (r : Fin 50000) (hr : r.val = 5000 * t.val + p.val) :
    Cert.DenseRows.row (iblk1 (F := Ideal) V c 0 t : Vec Ideal S5000x128 .f32) p
      = Cert.DenseRows.row (V c main_v15 : S50000x128.Idx → EReal) r := by
  obtain ⟨e0, e1, -⟩ := node_idx t
  funext k
  unfold Cert.DenseRows.row iblk1
  rw [View.read_apply]
  show V c main_v15 (((cfg1.win 0).blk t).view.emb (ValueIdx.ix2 p k)) = V c main_v15 (ValueIdx.ix2 r k)
  congr 1
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Entry (p, q) of the result window's block at point t is entry (5000 t + p, q) of the result array. -/
theorem node_out_emb (t : Fin cfg1.N) (p : Fin 5000) (q : Fin 128) (r : Fin 50000) (hr : r.val = 5000 * t.val + p.val) :
    ((cfg1.win 5).blk t).view.emb (ValueIdx.ix2 p q) = (ValueIdx.ix2 r q : S50000x128.Idx) := by
  obtain ⟨-, -, e0, e1, -⟩ := node_idx t
  funext a; apply Fin.ext
  match a with
  | ⟨0, _⟩ => show win1_5.index t (0 : Fin 2) * 5000 + 1 * p.val = r.val; omega
  | ⟨1, _⟩ => show win1_5.index t (1 : Fin 2) * 128 + 1 * q.val = q.val; omega

/-- What point t writes back is block t of the perceptron of the whole message array: the stored block is the
    perceptron of the loaded rows, the loaded weights and biases are the whole arrays, and the perceptron of rows
    5000 t .. 5000 t + 4999 of the array is rows 5000 t .. of the perceptron of the array. -/
theorem node_flushed (c : Dev nD) (t : Fin cfg1.N) :
    (dat1 (F := Ideal) V c).flushed 5 t = ((cfg1.win 5).blk t).view.read (Elt Ideal)
      (Cert.Perceptron.rows (V c main_v15) (V c main_v2) (V c main_arg9) (V c main_v3) (V c main_arg11)) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2,
    View.ld_unit_zero (S := S128) zero1]
  rw [Payload.node_payload]
  funext j
  obtain ⟨p, q, rfl⟩ : ∃ (p : Fin 5000) (q : Fin 128), j = ValueIdx.ix2 p q := ⟨j 0, j 1, ValueIdx.eq_ix2 j⟩
  have hN : cfg1.N = 10 := N_1
  have hr : 5000 * t.val + p.val < 50000 := by have := t.isLt; have := p.isLt; omega
  show Cert.Perceptron.rows (iblk1 V c 0 t) (iblk1 V c 1 t) (iblk1 V c 2 t) (iblk1 V c 3 t) (iblk1 V c 4 t) (ValueIdx.ix2 p q)
    = Cert.Perceptron.rows (V c main_v15) (V c main_v2) (V c main_arg9) (V c main_v3) (V c main_arg11)
        (((cfg1.win 5).blk t).view.emb (ValueIdx.ix2 p q))
  rw [node_out_emb t p q ⟨_, hr⟩ rfl, node_w1 V c t, node_b1 V c t, node_w2 V c t, node_b2 V c t]
  exact Cert.Perceptron.rows_congr_row _ _ _ _ _ _ p ⟨_, hr⟩ (node_x_row V c t p ⟨_, hr⟩ rfl) q

/-- An index of the result array is in point t's block iff each coordinate is in the block's range on its axis. -/
theorem node_mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v16).slice (win1_5.rect t)).set ↔ _
  rw [View.set_slice_whole, Rect.mem_set_unit]
  exact Iff.rfl

/-- The 10 blocks of 5000 rows tile the 50000 rows: row r is in the block of point r / 5000. -/
theorem node_cover (i : S50000x128.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 128 := (i 1).isLt
  obtain ⟨t, et⟩ : ∃ t : Fin cfg1.N, t.val = (i 0).val / 5000 := ⟨⟨(i 0).val / 5000, by omega⟩, rfl⟩
  obtain ⟨-, -, e0, e1, -⟩ := node_idx t
  refine ⟨t, flush1_5 t, ?_⟩
  rw [node_mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The edge region's result array after its last write-back: the perceptron of the edge-feature array it was
    entered with, at the transposed weights and biases it was entered with. -/
theorem edge_array (c : Dev nD) :
    (dat0 (F := Ideal) V c).arrAt 5 cfg0.N
      = Cert.Perceptron.rows (V c main_arg1) (V c main_v0) (V c main_arg5) (V c main_v1) (V c main_arg7) := by
  exact (dat0 V c).arrAt_eq_of_cover 5 _ (fun t _ => edge_flushed V c t) edge_cover

/-- The node region's result array after its last write-back: the perceptron of the aggregated-message array it was
    entered with, at the transposed weights and biases it was entered with. -/
theorem node_array (c : Dev nD) :
    (dat1 (F := Ideal) V c).arrAt 5 cfg1.N
      = Cert.Perceptron.rows (V c main_v15) (V c main_v2) (V c main_arg9) (V c main_v3) (V c main_arg11) := by
  exact (dat1 V c).arrAt_eq_of_cover 5 _ (fun t _ => node_flushed V c t) node_cover

end Cert.KernelIdeal.Arrays

end
-- ==== Proof.KernelValue.lean ====
/-
  The idealized kernel's result as one function of its arguments.

  Reading the run from its end: the result buffer holds the node region's output array; that array is the perceptron
  (last two weight matrices transposed, last two biases) of what the node region was entered with, the aggregation
  of the edge region's output array; and that array is the perceptron (first two weight matrices transposed, first
  two biases) of the edge features. Every operand is read back to the launch memory.
-/
import proofs.«127536_j13297218748565_1_alg».proof.Proof.KernelRun
import proofs.«127536_j13297218748565_1_alg».proof.Proof.HostChain
import proofs.«127536_j13297218748565_1_alg».proof.Proof.RegionArrays

set_option maxRecDepth 16384

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The graph layer on the extended reals: the node perceptron of the aggregated edge perceptron. -/
def result (c : Dev nD) : Vec Ideal S50000x128 .f32 :=
  Cert.Perceptron.rows
    (Chain.aggregate (m ((c : Thread nD τ).loc main_arg0)) (m ((c : Thread nD τ).loc main_arg2))
      (m ((c : Thread nD τ).loc main_arg3))
      (Cert.Perceptron.rows (m ((c : Thread nD τ).loc main_arg1))
        (transpose S128x128 [1, 0] (m ((c : Thread nD τ).loc main_arg4)) transposes_S128x128_S128x128_1_0)
        (m ((c : Thread nD τ).loc main_arg5))
        (transpose S128x128 [1, 0] (m ((c : Thread nD τ).loc main_arg6)) transposes_S128x128_S128x128_1_0)
        (m ((c : Thread nD τ).loc main_arg7))))
    (transpose S128x128 [1, 0] (m ((c : Thread nD τ).loc main_arg8)) transposes_S128x128_S128x128_1_0)
    (m ((c : Thread nD τ).loc main_arg9))
    (transpose S128x128 [1, 0] (m ((c : Thread nD τ).loc main_arg10)) transposes_S128x128_S128x128_1_0)
    (m ((c : Thread nD τ).loc main_arg11))

/-- The edge region's output array is the edge perceptron of the launch arrays. -/
theorem edge_result (c : Dev nD) :
    (dat0 (F := Ideal) (V1 m ρ) c).arrAt 5 cfg0.N
      = Cert.Perceptron.rows (m ((c : Thread nD τ).loc main_arg1))
          (transpose S128x128 [1, 0] (m ((c : Thread nD τ).loc main_arg4)) transposes_S128x128_S128x128_1_0)
          (m ((c : Thread nD τ).loc main_arg5))
          (transpose S128x128 [1, 0] (m ((c : Thread nD τ).loc main_arg6)) transposes_S128x128_S128x128_1_0)
          (m ((c : Thread nD τ).loc main_arg7)) := by
  rw [Arrays.edge_array (V1 m ρ) c, Chain.V1_arg1, Chain.V1_v0, Chain.V1_arg5, Chain.V1_v1, Chain.V1_arg7]

/-- The last segment boundary's contents at the result buffer are the graph layer of the launch arrays. -/
theorem boundary_result (c : Dev nD) : W4 (F := Ideal) m ρ c (Proc.devRef .tc main_v16) = result m c := by
  refine (W4_arr m ρ c 5).trans ?_
  rw [Arrays.node_array (V3 m ρ) c, Chain.V3_v15, Chain.V3_v2, Chain.V3_arg9, Chain.V3_v3, Chain.V3_arg11,
    edge_result]
  rfl

/-- Every weakly fair execution of the idealized kernel terminates without a fault, its result the graph layer of
    the launch arrays, its arguments unchanged. -/
theorem run : θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (boundary_result m ρ c), (h c).2⟩)
    (RunValue.run_named (F := Ideal) m ρ)

end Cert.KernelIdeal.Result

end
-- ==== Proof.RefSide.lean ====
/-
  The reference's result, as the perceptron of the aggregated perceptron.

  The reference computes, on the host: the edge perceptron `max (he · W1ᵀ + b1) 0 · W2ᵀ + b2` of all 800000 edge
  rows, the aggregation (gather the source nodes' rows, multiply, scatter-add by destination), and the node
  perceptron of the 50000 aggregated rows. Each perceptron, in the host's spelling, is the row-wise function
  `Cert.Perceptron.rows`; the aggregation is kept as the host spells it.
-/
import proofs.«127536_j13297218748565_1_alg».proof.Proof.Gen.ReferenceIdeal.Run
import proofs.«127536_j13297218748565_1_alg».proof.Proof.LibPerceptron

set_option maxRecDepth 16384

noncomputable section

namespace Cert.ReferenceIdeal.RefValue

open Idealize.ShloMosaic Cert.ReferenceIdeal Cert.ReferenceIdeal.Gen

/-- The host's aggregation: source indices below zero wrapped once by the node count, the source nodes' rows
    gathered, multiplied entrywise with the edge values `e`, and scatter-added into the zero array by destination
    index. -/
def aggregate (h : FVec Ideal S50000x128 .f32) (src dst : Vec Ideal S800000 .i32) (e : FVec Ideal S800000x128 .f32) :
    FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      e)

/-- The edge perceptron in the host's spelling is the row-wise perceptron. -/
theorem edge_eq (a1 : FVec Ideal S800000x128 .f32) (w1 : FVec Ideal S128x128 .f32) (b1 : FVec Ideal S128 .f32)
    (w2 : FVec Ideal S128x128 .f32) (b2 : FVec Ideal S128 .f32) :
    addf (Host.dotGeneral dot_S800000x128_S128x128_S800000x128_1_0_0_1_n_n none
            (maximumf
              (addf (Host.dotGeneral dot_S800000x128_S128x128_S800000x128_1_0_0_1_n_n none a1 w1)
                (broadcastInDim S800000x128 ![0, 1] bcast_S1x128_S800000x128_0_1 (broadcastInDim S1x128 ![1] bcast_S128_S1x128_1 b1)))
              (broadcastInDim S800000x128 ![] bcast_S_S800000x128 (constant (F := Ideal) S_ .f32 0x00000000#32)))
            w2)
         (broadcastInDim S800000x128 ![0, 1] bcast_S1x128_S800000x128_0_1 (broadcastInDim S1x128 ![1] bcast_S128_S1x128_1 b2))
      = Cert.Perceptron.rows a1 w1 b1 w2 b2 :=
  Cert.Perceptron.host_eq_rows _ rfl _ rfl a1 w1 b1 w2 b2 _ bcast_S_S800000x128 bcast_S128_S1x128_1
    bcast_S1x128_S800000x128_0_1 bcast_S128_S1x128_1 bcast_S1x128_S800000x128_0_1

/-- The node perceptron in the host's spelling is the row-wise perceptron. -/
theorem node_eq (a : FVec Ideal S50000x128 .f32) (w1 : FVec Ideal S128x128 .f32) (b1 : FVec Ideal S128 .f32)
    (w2 : FVec Ideal S128x128 .f32) (b2 : FVec Ideal S128 .f32) :
    addf (Host.dotGeneral dot_S50000x128_S128x128_S50000x128_1_0_0_1_n_n none
            (maximumf
              (addf (Host.dotGeneral dot_S50000x128_S128x128_S50000x128_1_0_0_1_n_n none a w1)
                (broadcastInDim S50000x128 ![0, 1] bcast_S1x128_S50000x128_0_1 (broadcastInDim S1x128 ![1] bcast_S128_S1x128_1 b1)))
              (broadcastInDim S50000x128 ![] bcast_S_S50000x128 (constant (F := Ideal) S_ .f32 0x00000000#32)))
            w2)
         (broadcastInDim S50000x128 ![0, 1] bcast_S1x128_S50000x128_0_1 (broadcastInDim S1x128 ![1] bcast_S128_S1x128_1 b2))
      = Cert.Perceptron.rows a w1 b1 w2 b2 :=
  Cert.Perceptron.host_eq_rows _ rfl _ rfl a w1 b1 w2 b2 _ bcast_S_S50000x128 bcast_S128_S1x128_1
    bcast_S1x128_S50000x128_0_1 bcast_S128_S1x128_1 bcast_S1x128_S50000x128_0_1

end Cert.ReferenceIdeal.RefValue

end
-- ==== Proof.lean ====
/-
  A graph message-passing layer: the kernel against its reference, on the extended reals.

  Both programs compute, for node features `h : [50000, 128]`, edge features `he : [800000, 128]`, source and
  destination indices and four dense layers,
      out = P₃₄ (Σ over edges into a node of  h[src] ∗ P₁₂ he),      P (x) = max (x · Wᵀ + b, 0) · W'ᵀ + b'.
  The kernel computes the two perceptrons in two regions, block of rows by block of rows (8000 edge rows at a time,
  then 5000 node rows at a time), and leaves the gather, the product and the scatter-sum to the host; the reference
  computes everything on the host.

  * The perceptron of one row depends on that row alone, so a block of rows computes the rows of the whole, and the
    blocks tile the array: each region's output array is the perceptron of its operand array. On the extended reals
    the narrowing of the matrix products' operands to a shorter float format is the identity, a matrix product
    accumulated into zero and the host's `dot_general` are the same sum over the contracted axis, and the bias
    reaches a row the same way in both spellings; nothing is distributed, cancelled or reordered, so no finiteness
    of the inputs is used.
  * The host stage between the regions is spelled the same way in both programs, so it is kept whole and never
    opened.
  * The word-level kernel and the idealized kernel terminate with their arguments unchanged by the generated frame
    run over the four segments of @main; the reference by its generated run. The idealization rewrote no operation,
    so there is nothing to preserve beyond that.
-/
import proofs.«127536_j13297218748565_1_alg».proof.Defs
import proofs.«127536_j13297218748565_1_alg».proof.Proof.Gen.Kernel
import proofs.«127536_j13297218748565_1_alg».proof.Proof.Gen.Kernel.Skeleton
import proofs.«127536_j13297218748565_1_alg».proof.Proof.Gen.Kernel.Launch
import proofs.«127536_j13297218748565_1_alg».proof.Proof.Gen.Kernel.Points
import proofs.«127536_j13297218748565_1_alg».proof.Proof.Gen.Kernel.Frame
import proofs.«127536_j13297218748565_1_alg».proof.Proof.Gen.KernelIdeal
import proofs.«127536_j13297218748565_1_alg».proof.Proof.Gen.KernelIdeal.Skeleton
import proofs.«127536_j13297218748565_1_alg».proof.Proof.Gen.KernelIdeal.Launch
import proofs.«127536_j13297218748565_1_alg».proof.Proof.Gen.KernelIdeal.Points
import proofs.«127536_j13297218748565_1_alg».proof.Proof.Gen.KernelIdeal.Frame
import proofs.«127536_j13297218748565_1_alg».proof.Proof.Gen.ReferenceIdeal
import proofs.«127536_j13297218748565_1_alg».proof.Proof.Gen.ReferenceIdeal.Run
import proofs.«127536_j13297218748565_1_alg».proof.Proof.Gen.ReferenceIdeal.Read
import proofs.«127536_j13297218748565_1_alg».proof.Proof.Gen.Pre_finite_inputs
import proofs.«127536_j13297218748565_1_alg».proof.Proof.KernelValue
import proofs.«127536_j13297218748565_1_alg».proof.Proof.RefSide
import Idealize.ShloMosaic.Adequacy
import Idealize.ShloMosaic.Init

set_option maxRecDepth 16384

noncomputable section

namespace Cert.Proof

open Idealize.ShloMosaic Idealize.SL.Sem

/-- The word-level kernel terminates, nothing faults, and its arguments end unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The aggregation stage is one function, whichever program's dimension records spell it. -/
theorem aggregate_eq (h : FVec Ideal Cert.ReferenceIdeal.S50000x128 .f32) (src dst : Vec Ideal Cert.ReferenceIdeal.S800000 .i32)
    (e : FVec Ideal Cert.ReferenceIdeal.S800000x128 .f32) :
    Cert.ReferenceIdeal.RefValue.aggregate h src dst e = Cert.KernelIdeal.Chain.aggregate (F := Ideal) h src dst e := rfl

/-- From memories agreeing on the arguments, the idealized kernel and the idealized reference both end with the
    graph layer of the arguments: the kernel by its two regions' arrays, the reference by its two perceptrons read
    row by row; the aggregation between them is the same host stage on equal arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [e0, e1, e2, e3, e4, e5, e6, e7, e8, e9, e10, e11, Cert.ReferenceIdeal.RefValue.edge_eq,
    Cert.ReferenceIdeal.RefValue.node_eq]
  exact congrArg (fun a => Cert.Perceptron.rows a _ _ _ _) (aggregate_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
